-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x1024 : Shape := ⟨3, ![64, 1, 1024]⟩
abbrev S100000x1024 : Shape := ⟨2, ![100000, 1024]⟩
abbrev S_ : Shape := ⟨0, ![]⟩

class Facts : Prop where
  bcast_S_S64x1x1024 : S_.BroadcastsInDim S64x1x1024 (![] : Fin 0 → Fin S64x1x1024.rank)
  reducesTo_S64x1x1024_S_d0_1_2 : S64x1x1024.ReducesTo [0, 1, 2] S_
  h_S_ : 0 < S_.numel
  bcast_S_S100000x1024 : S_.BroadcastsInDim S100000x1024 (![] : Fin 0 → Fin S100000x1024.rank)
  reducesTo_S100000x1024_S_d0_1 : S100000x1024.ReducesTo [0, 1] S_

variable [Facts]

def fn {F : FTy → Type} [FloatOps F] (main_arg0 : FVec F S64x1x1024 .f32) (main_arg1 : FVec F S100000x1024 .f32) : IVec S_ 1 :=
  let main_v0 : FVec F S64x1x1024 .f32 := Host.absf main_arg0
  let main_cst : FVec F S_ .f32 := constant S_ .f32 0x7F800000#32
  let main_v1 : FVec F S64x1x1024 .f32 := broadcastInDim S64x1x1024 ![] bcast_S_S64x1x1024 main_cst
  let main_v2 : IVec S64x1x1024 1 := cmpf .olt main_v0 main_v1
  let main_c : IVec S_ 1 := constantI S_ 1 1#1
  let main_v3 : IVec S_ 1 := (fun x v => Host.reduce IntOp.andi x v reducesTo_S64x1x1024_S_d0_1_2 h_S_) main_v2 main_c
  let main_v4 : FVec F S100000x1024 .f32 := Host.absf main_arg1
  let main_cst_0 : FVec F S_ .f32 := constant S_ .f32 0x7F800000#32
  let main_v5 : FVec F S100000x1024 .f32 := broadcastInDim S100000x1024 ![] bcast_S_S100000x1024 main_cst_0
  let main_v6 : IVec S100000x1024 1 := cmpf .olt main_v4 main_v5
  let main_c_1 : IVec S_ 1 := constantI S_ 1 1#1
  let main_v7 : IVec S_ 1 := (fun x v => Host.reduce IntOp.andi x v reducesTo_S100000x1024_S_d0_1 h_S_) main_v6 main_c_1
  let main_v8 : IVec S_ 1 := andi main_v3 main_v7
  main_v8
-- ==== Kernel.lean ====
abbrev S64x1x1024 : Shape := ⟨3, ![64, 1, 1024]⟩
abbrev S100000x1024 : Shape := ⟨2, ![100000, 1024]⟩
abbrev S64x1x100000 : Shape := ⟨3, ![64, 1, 100000]⟩
abbrev S4096x1024 : Shape := ⟨2, ![4096, 1024]⟩
abbrev S64x1x4096 : Shape := ⟨3, ![64, 1, 4096]⟩
abbrev S64x1024 : Shape := ⟨2, ![64, 1024]⟩
abbrev S64x4096 : Shape := ⟨2, ![64, 4096]⟩

abbrev nBuf : Space → Nat
  | .hbm => 3
  | .vmem => 5
  | .smem => 0
  | _ => 0

abbrev bufTy : (tb : Table) → Fin (tcTables nBuf tb) → BufTy
  | .hbm, ⟨0, _⟩ => ⟨S64x1x1024, .f32⟩
  | .hbm, ⟨1, _⟩ => ⟨S100000x1024, .f32⟩
  | .hbm, ⟨2, _⟩ => ⟨S64x1x100000, .f32⟩
  | .local _ .vmem, ⟨0, _⟩ => ⟨S64x1x1024, .f32⟩
  | .local _ .vmem, ⟨1, _⟩ => ⟨S4096x1024, .f32⟩
  | .local _ .vmem, ⟨2, _⟩ => ⟨S4096x1024, .f32⟩
  | .local _ .vmem, ⟨3, _⟩ => ⟨S64x1x4096, .f32⟩
  | .local _ .vmem, ⟨4, _⟩ => ⟨S64x1x4096, .f32⟩
  | _, _ => ⟨S64x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S64x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S64x1x1024_S64x1x1024_0_0_0 : ∀ a, (![0, 0, 0] : Fin 3 → Nat) a + S64x1x1024.size a ≤ S64x1x1024.size a
  h_S64x1x1024 : 0 < S64x1x1024.numel
  shapeCasts_S64x1x1024_S64x1024 : S64x1x1024.ShapeCasts S64x1024
  inb_S4096x1024_S4096x1024_0_0 : ∀ a, (![0, 0] : Fin 2 → Nat) a + S4096x1024.size a ≤ S4096x1024.size a
  h_S4096x1024 : 0 < S4096x1024.numel
  inb_S64x1x4096_S64x1x4096_0_0_0 : ∀ a, (![0, 0, 0] : Fin 3 → Nat) a + S64x1x4096.size a ≤ S64x1x4096.size a
  h_S64x1x4096 : 0 < S64x1x4096.numel
  shapeCasts_S64x1x4096_S64x4096 : S64x1x4096.ShapeCasts S64x4096
  shapeCasts_S64x4096_S64x1x4096 : S64x4096.ShapeCasts S64x1x4096
  dot_S64x1024_S4096x1024_S64x4096_1_1_0_0_n_n_wf : DotDims.WF S64x1024 S4096x1024 S64x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x1x1024.size a ≤ S64x1x1024.size a
  hwx0_0 : ∀ i : grid0.Coords, EltTy.bits .f32 = 32 ∨ (Rect.block (s := S64x1x1024) S64x1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x1024.size a < S100000x1024.size a
  hwx0_1 : ∀ i : grid0.Coords, EltTy.bits .f32 = 32 ∨ (Rect.unit (s := S100000x1024) (fun a => cc0_transform_1 i a * S4096x1024.size a) (fun a => (Pipeline.Clip.of (cc0_transform_1 i a) (S4096x1024.size a) (S100000x1024.size a)).extent (S4096x1024.size a)) fun a => Pipeline.Clip.inb (Pipeline.Clip.ok_of (hstart0_1 i a))).WholeWords (EltTy.packing .f32)
  hwxs0_1 : ∀ i : grid0.Coords, EltTy.bits .f32 = 32 ∨ (Rect.unit (s := S4096x1024) (fun _ => 0) (fun a => (Pipeline.Clip.of (cc0_transform_1 i a) (S4096x1024.size a) (S100000x1024.size a)).extent (S4096x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S64x1x4096.size a < S64x1x100000.size a
  hwx0_2 : ∀ i : grid0.Coords, EltTy.bits .f32 = 32 ∨ (Rect.unit (s := S64x1x100000) (fun a => cc0_transform_2 i a * S64x1x4096.size a) (fun a => (Pipeline.Clip.of (cc0_transform_2 i a) (S64x1x4096.size a) (S64x1x100000.size a)).extent (S64x1x4096.size a)) fun a => Pipeline.Clip.inb (Pipeline.Clip.ok_of (hstart0_2 i a))).WholeWords (EltTy.packing .f32)
  hwxs0_2 : ∀ i : grid0.Coords, EltTy.bits .f32 = 32 ∨ (Rect.unit (s := S64x1x4096) (fun _ => 0) (fun a => (Pipeline.Clip.of (cc0_transform_2 i a) (S64x1x4096.size a) (S64x1x100000.size a)).extent (S64x1x4096.size a)) fun a => (Nat.zero_add _).trans_le (Pipeline.Clip.extent_le (Pipeline.Clip.ok_of (hstart0_2 i a)))).WholeWords (EltTy.packing .f32)

variable [Facts₀]

def dot_S64x1024_S4096x1024_S64x4096_1_1_0_0_n_n : DotDims S64x1024 S4096x1024 S64x4096 where
  lhsContracting := [1]
  rhsContracting := [1]
  lhsNonContracting := [0]
  rhsNonContracting := [0]
  lhsBatch := []
  rhsBatch := []
  wf := dot_S64x1024_S4096x1024_S64x4096_1_1_0_0_n_n_wf

abbrev win0_0 : Pipeline.Window sig grid0 :=
  Pipeline.Window.ofSpec (Memref.whole main_arg0) S64x1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S4096x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S64x1x4096.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x1x1024 : Shape := ⟨3, ![64, 1, 1024]⟩
abbrev S100000x1024 : Shape := ⟨2, ![100000, 1024]⟩
abbrev S64x1x100000 : Shape := ⟨3, ![64, 1, 100000]⟩

abbrev nBuf : Space → Nat
  | .hbm => 3
  | .vmem => 0
  | .smem => 0
  | _ => 0

abbrev bufTy : (tb : Table) → Fin (tcTables nBuf tb) → BufTy
  | .hbm, ⟨0, _⟩ => ⟨S64x1x1024, .f32⟩
  | .hbm, ⟨1, _⟩ => ⟨S100000x1024, .f32⟩
  | .hbm, ⟨2, _⟩ => ⟨S64x1x100000, .f32⟩
  | _, _ => ⟨S64x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S64x1x1024_S100000x1024_S64x1x100000_2_1_01_0_n_n_wf : DotDims.WF S64x1x1024 S100000x1024 S64x1x100000 [2] [1] [0, 1] [0] [] []

variable [Facts₀]

def dot_S64x1x1024_S100000x1024_S64x1x100000_2_1_01_0_n_n : DotDims S64x1x1024 S100000x1024 S64x1x100000 where
  lhsContracting := [2]
  rhsContracting := [1]
  lhsNonContracting := [0, 1]
  rhsNonContracting := [0]
  lhsBatch := []
  rhsBatch := []
  wf := dot_S64x1x1024_S100000x1024_S64x1x100000_2_1_01_0_n_n_wf

class Facts : Prop extends Facts₀ where

variable [Facts]
-- ==== Proof.KernelBody.lean ====
/-
  The kernel body as a Hoare triple, at any float instance, for the kernel as printed at the word level.

  Run on three whole staging buffers — the activations' holding `x0`, the weight block's holding `x1`, the result's
  holding anything — the body loads the first two whole, loads the third (a value it never uses), and stores, over
  the whole third buffer, the block `k0_pay1 x0 x1` (the reshaped matrix product). It ends with the first two
  buffers as they were and the third holding exactly that block: one store through the whole-buffer rectangle
  leaves its payload, and a load through the whole-buffer rectangle reads the contents.
-/
import proofs.«120237_g29180007809632_cont_9to1_400_12_alg».proof.Proof.Gen.Kernel.Frame
import proofs.«120237_g29180007809632_cont_9to1_400_12_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The body's triple: inputs kept, the result's buffer at the stored block of the two inputs' contents. -/
theorem sound_kernel (c : Dev nD) (E : Set ℕ) (i : grid0.Coords)
    (arg1 : Memref sig .tc .vmem S64x1x1024 .f32) (harg1 : arg1.IsWhole)
    (arg2 : Memref sig .tc .vmem S4096x1024 .f32) (harg2 : arg2.IsWhole)
    (arg3 : Memref sig .tc .vmem S64x1x4096 .f32) (harg3 : arg3.IsWhole)
    (x0 : Vec F S64x1x1024 .f32) (x1 : Vec F S4096x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k0_pay1 x0 x1)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz3 : (![0, 0, 0] : Fin 3 → Nat) = fun _ => 0 := funext fun a => by fin_cases a <;> rfl
  have hz2 : (![0, 0] : Fin 2 → Nat) = fun _ => 0 := funext fun a => by fin_cases a <;> rfl
  refine (View.read_writes_eq_canon _ _ _ fun y => ⟨_, List.mem_singleton_self _,
    View.mem_set_unit_zero hz3 inb_S64x1x4096_S64x1x4096_0_0_0 y⟩).trans ?_
  rw [View.canon_unit_zero hz3, View.readAt_eq_ld, View.readAt_eq_ld, View.ld_unit_zero hz3, View.ld_unit_zero hz2]

end Cert.Kernel.Body

end
-- ==== Proof.KernelData.lean ====
/-
  The frame of the kernel as printed at the word level.

  The grid walks the vocabulary axis in 25 blocks of 4096 rows of the weight matrix; the last block overhangs the
  matrix, so after its fetch the tail of the weight buffer holds words nothing names, and the block the body stores
  there is computed from those words too. The frame says nothing of the result array, so the proof data FORGETS the
  result window: its staging buffer is handed to the body at any contents and taken back at any contents. What is
  stated is that the activations' buffer holds the activations at every point, that the weight buffer holds the point's
  block on the rows inside the matrix, and that the body — two whole loads, the product, one whole store to the result's
  buffer — leaves both as it found them. The two argument arrays are inputs of the pipeline: nothing is ever written
  back to them, so they end as launched.
-/
import proofs.«120237_g29180007809632_cont_9to1_400_12_alg».proof.Proof.KernelBody
import Idealize.ShloMosaic.Lib.Pipeline.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The weight block of point `t` as a full [4096, 1024] block: the rows inside the matrix, the zero word on the rows
    past its end. -/
def wblk (c : Dev nD) (t : Fin cfg0.N) : S4096x1024.Idx → Elt F .f32 :=
  win0_1.fill (grid0.coords t) (fun _ => Scalar.ofBits .f32 0#32) (iblk m c 1 t)

/-- The result window is forgotten; the two input windows are not. -/
def forgets : Fin 3 → Bool := fun w => w.val == 2

/-- The proof data on core `c`: the arrays as launched; after the body at point `t` the activations' buffer at the
    activations and the weight buffer at the point's weight block (stated on the rows inside the matrix); the
    result's buffer is forgotten, its entry here unnamed contents nothing reads. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblk m c t
    | ⟨2, h⟩ => Pipeline.Dat.unnamed (cfg := cfg0) ⟨2, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = wblk m c t := by dsimp only [dats]

/-- The activations' buffer holds the activations at every point, fetched there or not. -/
theorem before0_0 (c : Dev nD) (t : Fin cfg0.N) (d) : (dats m 0 c).before 0 t d = iblk m c 0 t :=
  before0_0_of m (dats m 0 c) (A_eq m c 0) (after0_0 m c) t d

/-- The weight buffer, fetched at every point, holds the point's block on the rows inside the matrix and, past the
    matrix's end, whatever the overwrite before the fetch left. -/
theorem before0_1 (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf iblk
  rw [A_eq]

/-! ## The body at a point -/

/-- The body at point `t` on the point's current staging buffers: it leaves the activations' and the weight buffer as
    they were and the result's at the stored block of the two. -/
theorem sound_point (c : Dev nD) (t : Fin cfg0.N) (d1 : S4096x1024.Idx → Elt F .f32) (K : PUnit → sProp 𝕄) :
    iprop(owns (c : Thread nD τ) (st0_0 t) fullShare (iblk m c 0 t)
        ∗ owns (c : Thread nD τ) (st0_1 t) fullShare (win0_1.fill (grid0.coords t) d1 (iblk m c 1 t))
        ∗ (∃ d, owns (c : Thread nD τ) (st0_2 t) fullShare d)
        ∗ (iprop(owns (c : Thread nD τ) (st0_0 t) fullShare (iblk m c 0 t)
              ∗ owns (c : Thread nD τ) (st0_1 t) fullShare (win0_1.fill (grid0.coords t) d1 (iblk m c 1 t))
              ∗ owns (c : Thread nD τ) (st0_2 t) fullShare
                  (k0_pay1 (iblk m c 0 t) (win0_1.fill (grid0.coords t) d1 (iblk m c 1 t)))) -∗ K ⟨⟩))
      ⊢ wp frame (wpE (defs₀ (F := F)) Variants.none c none) Set.univ (bodyAt0 t) K := by
  unfold bodyAt0
  exact sound_kernel c Set.univ (grid0.coords t) _ _ _ _ _ _ _ _ K

/-! ## The body obligation, the result window forgotten -/

/-- What the body is called with at point `t`: the invariant, nothing owed, the two inputs' buffers at what the
    pipeline left there, the result's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

/-- What it returns: the same, the weight buffer stated on the rows inside the matrix. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        (win0_1.fill (grid0.coords t) d (win0_1.cut (grid0.coords t) ((dats m 0 c).after 1 t))))
    ∗ (∃ X, owns (c : Thread nD τ) (st0_2 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before0_0 m c t d0, before0_1 m c t d1]
  iapply (sound_point m c t d1 _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · rw [after0_0]; iexact H0
  isplitl [H1]
  · iexists d1
    rw [after0_1]; unfold wblk; rw [Window.cut_fill]
    iexact H1
  · iexists _; iexact H2

/-- The body obligation at every point, the result window forgotten. -/
theorem body_obligation (c : Dev nD) :
    BodyObligationLoose (dats (F := F) m 0 c) (defs₀ (F := F)) Variants.none () Set.univ forgets := fun t => by
  rw [bigSep_W0, bigSep_W0]
  exact sound_body m c t

/-! ## The run and the frame -/

set_option backward.isDefEq.respectTransparency.types false in
/-- Every weakly fair execution of the kernel terminates without a fault, with every input array of the pipeline at
    what it held at the launch; of the forgotten result array nothing is stated. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget)
    (hshare := fun c => ((dats m 0 c).toRForget forgets).share_full fun _ => rfl)
    (howed := fun _ _ => rfl) (V := V m) (hmain := hmain m Variants.none) (hA := A_eq m) (hΦ := fun _ _ => rfl)

/-- The frame of the kernel: it runs to the end and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((congrFun (Pipeline.RDat.ArrAt_in ((dats m 0 c).toRForget forgets) 0 rfl cfg0.N) _).mp ((h c).1 0)).trans
        ((A_eq m c 0).trans (V_main_arg0 m c)),
      ((congrFun (Pipeline.RDat.ArrAt_in ((dats m 0 c).toRForget forgets) 1 rfl cfg0.N) _).mp ((h c).1 1)).trans
        ((A_eq m c 1).trans (V_main_arg1 m c))⟩)
    (run_main m ρ)

end Cert.Kernel.Body

end
-- ==== Proof.IdealBody.lean ====
/-
  The kernel body as a Hoare triple, at any float instance.

  Run on three whole staging buffers — the activations' holding `x0`, the weight block's holding `x1`, the result's
  holding anything — the body loads the first two whole, loads the third (a value it never uses), and stores, over
  the whole third buffer, the block `k0_pay1 x0 x1` (the reshaped matrix product). It ends with the first two
  buffers as they were and the third holding exactly that block: one store through the whole-buffer rectangle
  leaves its payload, and a load through the whole-buffer rectangle reads the contents.
-/
import proofs.«120237_g29180007809632_cont_9to1_400_12_alg».proof.Proof.Gen.KernelIdeal.Frame
import proofs.«120237_g29180007809632_cont_9to1_400_12_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The body's triple: inputs kept, the result's buffer at the stored block of the two inputs' contents. -/
theorem sound_kernel (c : Dev nD) (E : Set ℕ) (i : grid0.Coords)
    (arg1 : Memref sig .tc .vmem S64x1x1024 .f32) (harg1 : arg1.IsWhole)
    (arg2 : Memref sig .tc .vmem S4096x1024 .f32) (harg2 : arg2.IsWhole)
    (arg3 : Memref sig .tc .vmem S64x1x4096 .f32) (harg3 : arg3.IsWhole)
    (x0 : Vec F S64x1x1024 .f32) (x1 : Vec F S4096x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k0_pay1 x0 x1)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz3 : (![0, 0, 0] : Fin 3 → Nat) = fun _ => 0 := funext fun a => by fin_cases a <;> rfl
  have hz2 : (![0, 0] : Fin 2 → Nat) = fun _ => 0 := funext fun a => by fin_cases a <;> rfl
  refine (View.read_writes_eq_canon _ _ _ fun y => ⟨_, List.mem_singleton_self _,
    View.mem_set_unit_zero hz3 inb_S64x1x4096_S64x1x4096_0_0_0 y⟩).trans ?_
  rw [View.canon_unit_zero hz3, View.readAt_eq_ld, View.readAt_eq_ld, View.ld_unit_zero hz3, View.ld_unit_zero hz2]

end Cert.KernelIdeal.Body

end
-- ==== Proof.IdealData.lean ====
/-
  The proof data of the pipelined matrix product and its body obligation, at any float instance.

  The grid walks the vocabulary axis in 25 blocks of 4096 rows of the weight matrix (100000 rows: the last block
  holds 1696 rows of the matrix and overhangs it by 2400). The activations stay resident; at every point the
  pipeline fetches one weight block into a staging buffer — of the last block only the rows inside the matrix, the
  rest of the buffer holding words nothing names — and writes back one [64, 1, 4096] block of the result, of the last
  block only the 1696 columns inside the result.

  After the body at point `t` the activations' buffer holds the activations, the weight buffer the point's weight
  block on the rows inside the matrix, and the result's buffer the stored block. The last is a function of the
  WHOLE weight buffer, unnamed rows included; what the obligation states of it is its part inside the result
  array, and that part does not see the unnamed rows provided column `v` of the product reads row `v` of the weight
  buffer only (`Local`, a hypothesis here: it is proved where the product is a plain sum).
-/
import proofs.«120237_g29180007809632_cont_9to1_400_12_alg».proof.Proof.IdealBody

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The weight block of point `t` as a full [4096, 1024] block: the rows inside the array, the zero word on the rows
    past the array's end (only the last block has such rows). -/
def wblk (c : Dev nD) (t : Fin cfg0.N) : S4096x1024.Idx → Elt F .f32 :=
  win0_1.fill (grid0.coords t) (fun _ => Scalar.ofBits .f32 0#32) (iblk m c 1 t)

/-- The proof data of the one pipeline on core `c`: the arrays as launched; after the body at point `t` the
    activations' buffer at the activations, the weight buffer at the point's weight block (stated on the rows inside
    the array), the result's buffer at the stored block of the two (stated on the columns inside the array);
    the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblk m c t
    | ⟨2, _⟩ => k0_pay1 (iblk m c 0 t) (wblk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = wblk m c t := by dsimp only [dats]
theorem after0_2 (c : Dev nD) (t : Fin cfg0.N) :
    (dats m 0 c).after 2 t = k0_pay1 (iblk m c 0 t) (wblk m c t) := by dsimp only [dats]

/-- The activations' buffer holds the activations at every point, fetched there or not. -/
theorem before0_0 (c : Dev nD) (t : Fin cfg0.N) (d) : (dats m 0 c).before 0 t d = iblk m c 0 t :=
  before0_0_of m (dats m 0 c) (A_eq m c 0) (after0_0 m c) t d

/-- The weight buffer, fetched at every point, holds the point's block on the rows inside the array and, past the
    array's end, whatever the overwrite before the fetch left. -/
theorem before0_1 (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf iblk
  rw [A_eq]

/-! ## The body at a point -/

/-- The body at point `t` on the point's current staging buffers: the activations' at the activations, the weight
    buffer at the point's block filled out with any `d1` past the array's end, the result's at anything. It leaves the
    first two as they were and the result's at the stored block of the two. -/
theorem sound_point (c : Dev nD) (t : Fin cfg0.N) (d1 : S4096x1024.Idx → Elt F .f32) (K : PUnit → sProp 𝕄) :
    iprop(owns (c : Thread nD τ) (st0_0 t) fullShare (iblk m c 0 t)
        ∗ owns (c : Thread nD τ) (st0_1 t) fullShare (win0_1.fill (grid0.coords t) d1 (iblk m c 1 t))
        ∗ (∃ d, owns (c : Thread nD τ) (st0_2 t) fullShare d)
        ∗ (iprop(owns (c : Thread nD τ) (st0_0 t) fullShare (iblk m c 0 t)
              ∗ owns (c : Thread nD τ) (st0_1 t) fullShare (win0_1.fill (grid0.coords t) d1 (iblk m c 1 t))
              ∗ owns (c : Thread nD τ) (st0_2 t) fullShare
                  (k0_pay1 (iblk m c 0 t) (win0_1.fill (grid0.coords t) d1 (iblk m c 1 t)))) -∗ K ⟨⟩))
      ⊢ wp frame (wpE (defs₀ (F := F)) Variants.none c none) Set.univ (bodyAt0 t) K := by
  unfold bodyAt0
  exact sound_kernel c Set.univ (grid0.coords t) _ _ _ _ _ _ _ _ K

/-! ## The body obligation -/

/-- THE LOCALITY of the stored block: on the columns inside the result array, it does not depend on what the weight
    buffer holds on the rows past the weight array's end. (True wherever column `v` of the product reads row `v` of
    the weight block only; proved at the extended reals, where the product is the plain sum.) -/
def Local (F : FTy → Type) [FloatOps F] : Prop :=
  ∀ (t : Fin cfg0.N) (x0 : Vec F S64x1x1024 .f32) (d d' : S4096x1024.Idx → Elt F .f32)
    (g : (win0_1.xblock (grid0.coords t)).Idx → Elt F .f32),
    win0_2.cut (grid0.coords t) (k0_pay1 x0 (win0_1.fill (grid0.coords t) d g))
      = win0_2.cut (grid0.coords t) (k0_pay1 x0 (win0_1.fill (grid0.coords t) d' g))

/-- Whatever the weight buffer held past the array's end, the stored block is itself filled, on the columns inside
    the result array, with the stored block of the zero-filled weight block. -/
theorem leaves_out (hloc : Local F) (t : Fin cfg0.N) (x0 : Vec F S64x1x1024 .f32) (d1 : S4096x1024.Idx → Elt F .f32)
    (g : (win0_1.xblock (grid0.coords t)).Idx → Elt F .f32) :
    win0_2.fill (grid0.coords t) (k0_pay1 x0 (win0_1.fill (grid0.coords t) d1 g))
        (win0_2.cut (grid0.coords t) (k0_pay1 x0 (win0_1.fill (grid0.coords t) (fun _ => Scalar.ofBits .f32 0#32) g)))
      = k0_pay1 x0 (win0_1.fill (grid0.coords t) d1 g) :=
  win0_2.fill_congr_cut (grid0.coords t) (hloc t x0 d1 _ g)

/-- So the result's buffer after the body is handed back as the obligation of a window stated on its moved part asks. -/
theorem out_entails (hloc : Local F) (c : Dev nD) (t : Fin cfg0.N) (d1 : S4096x1024.Idx → Elt F .f32) :
    owns (c : Thread nD τ) (st0_2 t) fullShare (k0_pay1 (iblk m c 0 t) (win0_1.fill (grid0.coords t) d1 (iblk m c 1 t)))
      ⊢ (iprop(∃ d, owns (c : Thread nD τ) (st0_2 t) fullShare
          (win0_2.fill (grid0.coords t) d (win0_2.cut (grid0.coords t) ((dats m 0 c).after 2 t)))) : sProp 𝕄) := by
  rw [after0_2]; unfold wblk
  iintro H
  iexists (k0_pay1 (iblk m c 0 t) (win0_1.fill (grid0.coords t) d1 (iblk m c 1 t)))
  rw [leaves_out hloc t (iblk m c 0 t) d1 (iblk m c 1 t)]
  try iexact H

/-- The body obligation at every point, given the locality: the weight buffer is handed back as it was found — the
    block on the rows inside the array —, and the result's buffer holds the stored block of what the weight buffer
    really held, which on the columns inside the array is the stored block of the zero-filled block. -/
theorem body_obligation (hloc : Local F) (c : Dev nD) :
    BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before0_0 m c t d0, before0_1 m c t d1]
  iapply (sound_point m c t d1 _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · rw [after0_0]; iexact H0
  isplitl [H1]
  · iexists d1
    change _ ⊢ owns (c : Thread nD τ) (st0_1 t) fullShare
      (win0_1.fill (grid0.coords t) d1 (win0_1.cut (grid0.coords t) ((dats m 0 c).after 1 t)))
    rw [after0_1]; unfold wblk; rw [Window.cut_fill]
    try iexact H1
  · iapply (out_entails m hloc c t d1)
    iexact H2

end Cert.KernelIdeal.Body

end
-- ==== Proof.Payload.lean ====
/-
  The block the kernel body stores, read entry by entry over the extended reals.

  The body reshapes the resident activations `x` [64, 1, 1024] to [64, 1024], multiplies them on the matrix unit with
  the staged weight block `Y` [4096, 1024] contracted along the hidden axis of both (so the product is `x · Yᵀ`,
  [64, 4096], accumulated from the zero splat) and reshapes the product to [64, 1, 4096]. Over the extended reals
  the matrix product is the plain finite sum, the zero accumulator is the additive unit, and a reshape that only
  drops or restores a unit axis keeps every entry at the same row-major position. Hence entry `(b, 0, v)` of the
  stored block is `∑ k, x[b, 0, k] · Y[v, k]`: it reads row `v` of the weight block and no other row.
-/
import proofs.«120237_g29180007809632_cont_9to1_400_12_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic

/-! ## The product of the [64, 1024] activations with the transposed [4096, 1024] weight block, entry by entry -/

theorem lhs_0 (i : S64x4096.Idx) (q : dot_S64x1024_S4096x1024_S64x4096_1_1_0_0_n_n.contr.Idx) :
    (dot_S64x1024_S4096x1024_S64x4096_1_1_0_0_n_n.lhsIdx i q 0).val = (i 0).val := by
  unfold DotDims.lhsIdx
  rw [dif_neg (show ¬(0 : Fin S64x1024.rank) ∈ dot_S64x1024_S4096x1024_S64x4096_1_1_0_0_n_n.lhsBatch by decide),
    dif_pos (show (0 : Fin S64x1024.rank) ∈ dot_S64x1024_S4096x1024_S64x4096_1_1_0_0_n_n.lhsNonContracting by decide)]
  rfl
theorem lhs_1 (i : S64x4096.Idx) (q : dot_S64x1024_S4096x1024_S64x4096_1_1_0_0_n_n.contr.Idx) :
    (dot_S64x1024_S4096x1024_S64x4096_1_1_0_0_n_n.lhsIdx i q 1).val = (q ⟨0, by decide⟩).val :=
  dot_S64x1024_S4096x1024_S64x4096_1_1_0_0_n_n.lhsIdx_val_of_single rfl i q
theorem rhs_0 (i : S64x4096.Idx) (q : dot_S64x1024_S4096x1024_S64x4096_1_1_0_0_n_n.contr.Idx) :
    (dot_S64x1024_S4096x1024_S64x4096_1_1_0_0_n_n.rhsIdx i q 0).val = (i 1).val := by
  unfold DotDims.rhsIdx
  rw [dif_neg (show ¬(0 : Fin S4096x1024.rank) ∈ dot_S64x1024_S4096x1024_S64x4096_1_1_0_0_n_n.rhsBatch by decide),
    dif_pos (show (0 : Fin S4096x1024.rank) ∈ dot_S64x1024_S4096x1024_S64x4096_1_1_0_0_n_n.rhsNonContracting by decide)]
  rfl
theorem rhs_1 (i : S64x4096.Idx) (q : dot_S64x1024_S4096x1024_S64x4096_1_1_0_0_n_n.contr.Idx) :
    (dot_S64x1024_S4096x1024_S64x4096_1_1_0_0_n_n.rhsIdx i q 1).val = (q ⟨0, by decide⟩).val :=
  dot_S64x1024_S4096x1024_S64x4096_1_1_0_0_n_n.rhsIdx_val_of_single rfl i q

/-- Row `i 0` of the activations at contraction position `k`. -/
abbrev li (i : S64x4096.Idx) (k : Fin 1024) : S64x1024.Idx := fun a => match a with
  | ⟨0, _⟩ => ⟨(i 0).val, (i 0).isLt⟩
  | ⟨1, _⟩ => ⟨k.val, k.isLt⟩
/-- Row `i 1` of the weight block at contraction position `k`. -/
abbrev ri (i : S64x4096.Idx) (k : Fin 1024) : S4096x1024.Idx := fun a => match a with
  | ⟨0, _⟩ => ⟨(i 1).val, (i 1).isLt⟩
  | ⟨1, _⟩ => ⟨k.val, k.isLt⟩

/-- Entry `(r, v)` of the matrix product is the sum over the hidden axis of activation row `r` times weight row `v`. -/
theorem mm_apply (L : FVec Ideal S64x1024 .f32) (Y : FVec Ideal S4096x1024 .f32) (i : S64x4096.Idx) :
    matmul (F := Ideal) dot_S64x1024_S4096x1024_S64x4096_1_1_0_0_n_n none L Y (constant S64x4096 .f32 0x00000000#32) i
      = ∑ k : Fin 1024, L (li i k) * Y (ri i k) := by
  simp only [matmul]
  rw [Ideal.matmul_constant_zero_apply,
    ← Equiv.sum_comp (ValueIdx.contrEquiv1 dot_S64x1024_S4096x1024_S64x4096_1_1_0_0_n_n 1024 rfl rfl).symm]
  refine Finset.sum_congr rfl fun k _ => ?_
  have hk := ValueIdx.contrEquiv1_symm_val dot_S64x1024_S4096x1024_S64x4096_1_1_0_0_n_n 1024 rfl rfl k
  have el : dot_S64x1024_S4096x1024_S64x4096_1_1_0_0_n_n.lhsIdx i
      ((ValueIdx.contrEquiv1 dot_S64x1024_S4096x1024_S64x4096_1_1_0_0_n_n 1024 rfl rfl).symm k) = li i k :=
    funext fun a => Fin.ext (by
      match a with
      | ⟨0, _⟩ => exact lhs_0 _ _
      | ⟨1, _⟩ => exact (lhs_1 _ _).trans hk)
  have er : dot_S64x1024_S4096x1024_S64x4096_1_1_0_0_n_n.rhsIdx i
      ((ValueIdx.contrEquiv1 dot_S64x1024_S4096x1024_S64x4096_1_1_0_0_n_n 1024 rfl rfl).symm k) = ri i k :=
    funext fun a => Fin.ext (by
      match a with
      | ⟨0, _⟩ => exact rhs_0 _ _
      | ⟨1, _⟩ => exact (rhs_1 _ _).trans hk)
  rw [el, er]

/-! ## The stored block, entry by entry -/

/-- The activation entry that output entry `j` multiplies at contraction position `k`. -/
abbrev lix (j : S64x1x4096.Idx) (k : Fin 1024) : S64x1x1024.Idx := fun a => match a with
  | ⟨0, _⟩ => ⟨(j 0).val, (j 0).isLt⟩
  | ⟨1, _⟩ => ⟨(j 1).val, (j 1).isLt⟩
  | ⟨2, _⟩ => ⟨k.val, k.isLt⟩
/-- The weight entry it is multiplied with: row `j 2` of the weight block. -/
abbrev rix (j : S64x1x4096.Idx) (k : Fin 1024) : S4096x1024.Idx := fun a => match a with
  | ⟨0, _⟩ => ⟨(j 2).val, (j 2).isLt⟩
  | ⟨1, _⟩ => ⟨k.val, k.isLt⟩
/-- The matrix product's entry the [64, 1, 4096] block reads at `j`. -/
abbrev mid (j : S64x1x4096.Idx) : S64x4096.Idx := fun a => match a with
  | ⟨0, _⟩ => ⟨(j 0).val, (j 0).isLt⟩
  | ⟨1, _⟩ => ⟨(j 2).val, (j 2).isLt⟩

/-- What the body stores at `(b, 0, v)` is the sum over the hidden axis of `x[b, 0, ·]` times row `v` of the weight
    block: the two reshapes only drop and restore the unit axis. -/
theorem pay_apply (x0 : Vec Ideal S64x1x1024 .f32) (Y : Vec Ideal S4096x1024 .f32) (j : S64x1x4096.Idx) :
    k0_pay1 (F := Ideal) x0 Y j = ∑ k : Fin 1024, x0 (lix j k) * Y (rix j k) := by
  have h1 : (j 1).val = 0 := by have : (j 1).val < 1 := (j 1).isLt; omega
  unfold k0_pay1
  rw [shapeCast_apply _ _ j (mid j) (by
    rw [Shape.rowMajor_val_two, Shape.rowMajor_val_three]
    show (j 0).val * 4096 + (j 2).val = ((j 0).val * 1 + (j 1).val) * 4096 + (j 2).val
    rw [h1]; omega), mm_apply]
  refine Finset.sum_congr rfl fun k _ => ?_
  rw [shapeCast_apply x0 _ (li (mid j) k) (lix j k) (by
    rw [Shape.rowMajor_val_three, Shape.rowMajor_val_two]
    show ((j 0).val * 1 + (j 1).val) * 1024 + k.val = (j 0).val * 1024 + k.val
    rw [h1]; omega)]

end Cert.KernelIdeal.Pay

end
-- ==== Proof.IdealValue.lean ====
/-
  The stored block is local in the weight rows, over the extended reals.

  Over the 25 points the index maps are decided once: the weight window's row block and the result window's column block
  are both the point, and the weight block is cut on its rows exactly as the result block is on its columns (to 1696 at
  the last point). So a column of the stored block that lies inside the result array names a row of the weight block
  that lies inside the weight matrix, and the entry there — the sum over the hidden axis of the activations' row times
  that weight row — does not see what the weight buffer holds past the matrix's end.
-/
import proofs.«120237_g29180007809632_cont_9to1_400_12_alg».proof.Proof.IdealData
import proofs.«120237_g29180007809632_cont_9to1_400_12_alg».proof.Proof.Payload
import Idealize.ShloMosaic.Lib.Pipeline.Value

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-! ## The schedule, decided over the 25 points -/

/-- The printed index maps and cuts over the grid: the activations' block index is always zero; the weight window's
    row-block index and the result window's column-block index are both the point (the clamp at 24 never bites on a
    grid of 25); the weight block is cut on its rows exactly as the result block is on its columns, to
    `min 4096 (100000 - 4096 t)`, and nowhere else. -/
theorem grid_facts : ∀ t : Fin cfg0.N,
    win0_1.xsize (grid0.coords t) (0 : Fin 2) = win0_2.xsize (grid0.coords t) (2 : Fin 3)
    ∧ win0_1.xsize (grid0.coords t) (1 : Fin 2) = 1024
    ∧ win0_0.index t (0 : Fin 3) = 0 ∧ win0_0.index t (1 : Fin 3) = 0 ∧ win0_0.index t (2 : Fin 3) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = t.val
    ∧ win0_2.xsize (grid0.coords t) (0 : Fin 3) = 64 ∧ win0_2.xsize (grid0.coords t) (1 : Fin 3) = 1
    ∧ win0_2.xsize (grid0.coords t) (2 : Fin 3) = min 4096 (100000 - t.val * 4096) :=
  (by decide +kernel : ∀ t : Fin grid0.N, _)

/-! ## The locality of the stored block, at the extended reals -/

/-- Row `y 2` of the weight block's part inside the matrix, at contraction position `k`: a column of the result
    block inside the result array names a row of the weight block inside the weight matrix. -/
def wrow (t : Fin cfg0.N) (y : (win0_2.xblock (grid0.coords t)).Idx) (k : Fin 1024) :
    (win0_1.xblock (grid0.coords t)).Idx := fun a => match a with
  | ⟨0, _⟩ => ⟨(y 2).val, lt_of_lt_of_eq (y 2).isLt (grid_facts t).1.symm⟩
  | ⟨1, _⟩ => ⟨k.val, lt_of_lt_of_eq k.isLt (grid_facts t).2.1.symm⟩

theorem xinj_wrow (t : Fin cfg0.N) (y : (win0_2.xblock (grid0.coords t)).Idx) (k : Fin 1024) :
    win0_1.xinj (grid0.coords t) (wrow t y k) = Pay.rix (win0_2.xinj (grid0.coords t) y) k :=
  funext fun a => Fin.ext (by
    match a with
    | ⟨0, _⟩ => rfl
    | ⟨1, _⟩ => rfl)

/-- The stored block at a column inside the result array: the sum over the hidden axis of the activations' row times
    the weight block's row of that column, which lies inside the weight matrix — whatever fills the rows past its end. -/
theorem pay_cut (t : Fin cfg0.N) (x0 : Vec Ideal S64x1x1024 .f32) (d : S4096x1024.Idx → Elt Ideal .f32)
    (g : (win0_1.xblock (grid0.coords t)).Idx → Elt Ideal .f32) (y : (win0_2.xblock (grid0.coords t)).Idx) :
    k0_pay1 (F := Ideal) x0 (win0_1.fill (grid0.coords t) d g) (win0_2.xinj (grid0.coords t) y)
      = ∑ k : Fin 1024, x0 (Pay.lix (win0_2.xinj (grid0.coords t) y) k) * g (wrow t y k) := by
  rw [Pay.pay_apply]
  refine Finset.sum_congr rfl fun k _ => ?_
  rw [← xinj_wrow, Window.fill_xinj]

theorem local_ideal : Body.Local Ideal := fun t x0 d d' g => by
  funext y
  show k0_pay1 (F := Ideal) x0 (win0_1.fill (grid0.coords t) d g) (win0_2.xinj (grid0.coords t) y)
    = k0_pay1 (F := Ideal) x0 (win0_1.fill (grid0.coords t) d' g) (win0_2.xinj (grid0.coords t) y)
  rw [pay_cut, pay_cut]

end Cert.KernelIdeal.Val

end
-- ==== Proof.IdealRun.lean ====
/-
  The idealized kernel's run and its frame.

  With the stored block local in the weight rows (column `v` of the product reads row `v` of the weight buffer and no
  other), the body obligation holds at the extended reals, and the pipeline's frame run gives: every weakly fair
  execution terminates, nothing faults, the two argument arrays end as launched, and the result array ends at what the
  25 write-backs leave of the stored blocks.
-/
import proofs.«120237_g29180007809632_cont_9to1_400_12_alg».proof.Proof.IdealValue
import Idealize.ShloMosaic.Lib.Pipeline.Frame

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

set_option backward.isDefEq.respectTransparency.types false in
/-- Every weakly fair execution of the idealized kernel terminates without a fault, with every array of the pipeline
    at what the write-backs leave of the proof data's blocks. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m local_ideal c) (hshare := fun c => (dats m 0 c).share_full fun _ => rfl)
    (howed := fun _ _ => rfl) (V := V m) (hmain := hmain m Variants.none) (hA := fun _ _ => rfl) (hΦ := fun _ _ => rfl)

/-- The frame of the idealized kernel: it runs to the end and its two argument arrays end unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Val

end
-- ==== Proof.IdealFinal.lean ====
/-
  The result array of the idealized kernel as one function of the two argument arrays.

  Write `x` for the activations [64, 1, 1024] and `W` for the weight matrix [100000, 1024]. The result [64, 1, 100000]
  is `logits[b, 0, v] = ∑ k, x[b, 0, k] · W[v, k]`. Point `t` of the grid writes back columns `4096 t ‥` of it: entry
  `(b, 0, j)` of the stored block is the sum over the hidden axis of `x[b, 0, ·]` times row `j` of the staged weight
  block, and for a column inside the result array that row is row `4096 t + j` of `W`, a row inside the matrix. So
  what point `t` writes back is block `t` of `logits`; column `v` lies in the block of point `v / 4096`; the 25
  blocks cover the array; and the array ends holding `logits`.
-/
import proofs.«120237_g29180007809632_cont_9to1_400_12_alg».proof.Proof.IdealRun

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-! ## The product, index by index -/

/-- The activation entry `x[i 0, i 1, k]`. -/
abbrev xi (i : S64x1x100000.Idx) (k : Fin 1024) : S64x1x1024.Idx := fun a => match a with
  | ⟨0, _⟩ => ⟨(i 0).val, (i 0).isLt⟩
  | ⟨1, _⟩ => ⟨(i 1).val, (i 1).isLt⟩
  | ⟨2, _⟩ => ⟨k.val, k.isLt⟩
/-- The weight entry `W[i 2, k]`. -/
abbrev wi (i : S64x1x100000.Idx) (k : Fin 1024) : S100000x1024.Idx := fun a => match a with
  | ⟨0, _⟩ => ⟨(i 2).val, (i 2).isLt⟩
  | ⟨1, _⟩ => ⟨k.val, k.isLt⟩

/-- `logits[b, 0, v] = ∑ k, x[b, 0, k] · W[v, k]`. -/
def logits (x : S64x1x1024.Idx → Elt Ideal .f32) (W : S100000x1024.Idx → Elt Ideal .f32) : S64x1x100000.Idx → Elt Ideal .f32 :=
  fun i => ∑ k : Fin 1024, x (xi i k) * W (wi i k)

/-! ## What a point writes back -/

/-- At a column inside the result array the stored block is the product's entry there, given that the activations'
    block and the weight block's rows inside the matrix read the argument arrays where the product does. -/
theorem stored_eq_logits (t : Fin cfg0.N) (x0 : Vec Ideal S64x1x1024 .f32) (d : S4096x1024.Idx → Elt Ideal .f32)
    (g : (win0_1.xblock (grid0.coords t)).Idx → Elt Ideal .f32)
    (X : S64x1x1024.Idx → Elt Ideal .f32) (W : S100000x1024.Idx → Elt Ideal .f32)
    (y : (win0_2.xblock (grid0.coords t)).Idx) (i : S64x1x100000.Idx)
    (hx : ∀ k : Fin 1024, x0 (Pay.lix (win0_2.xinj (grid0.coords t) y) k) = X (xi i k))
    (hg : ∀ k : Fin 1024, g (wrow t y k) = W (wi i k)) :
    k0_pay1 (F := Ideal) x0 (win0_1.fill (grid0.coords t) d g) (win0_2.xinj (grid0.coords t) y) = logits X W i := by
  rw [pay_cut]
  unfold logits
  exact Finset.sum_congr rfl fun k _ => by rw [hx k, hg k]

/-- The activations' block at any point reads the activations where the product does. -/
theorem read_x (c : Dev nD) (t : Fin cfg0.N) (y : (win0_2.xblock (grid0.coords t)).Idx) (k : Fin 1024) :
    iblk m c 0 t (Pay.lix (win0_2.xinj (grid0.coords t) y) k)
      = V m c main_arg0 (xi (((cfg0.win 2).blk t).view.emb y) k) := by
  obtain ⟨-, -, a0, a1, a2, -, -, o0, o1, -, -, -, -⟩ := grid_facts t
  show V m c main_arg0 (((cfg0.win 0).blk t).view.emb (Pay.lix (win0_2.xinj (grid0.coords t) y) k)) = _
  refine congrArg (V m c main_arg0) ?_
  funext a; apply Fin.ext
  match a with
  | ⟨0, _⟩ =>
    show win0_0.index t (0 : Fin 3) * 64 + 1 * (y 0).val = win0_2.index t (0 : Fin 3) * 64 + 1 * (y 0).val
    rw [a0, o0]
  | ⟨1, _⟩ =>
    show win0_0.index t (1 : Fin 3) * 1 + 1 * (y 1).val = win0_2.index t (1 : Fin 3) * 1 + 1 * (y 1).val
    rw [a1, o1]
  | ⟨2, _⟩ =>
    show win0_0.index t (2 : Fin 3) * 1024 + 1 * k.val = k.val
    rw [a2]; omega

/-- Where an entry of the weight block's part inside the matrix sits in the matrix: on each axis at the block index
    times the block's size plus its own coordinate. -/
theorem emb_w (t : Fin cfg0.N) (y : (win0_2.xblock (grid0.coords t)).Idx) (k : Fin 1024) (a : Fin 2) :
    ((((cfg0.win 1).blk t).view.emb (wrow t y k)) a : Nat)
      = win0_1.index t a * win0_1.size a + ((Pay.rix (win0_2.xinj (grid0.coords t) y) k) a : Nat) := by
  rw [← xinj_wrow]
  exact win0_1.rect_emb_val t (wrow t y k) a

/-- The weight block's row of a column inside the result array is the matrix's row of that column. -/
theorem read_w (c : Dev nD) (t : Fin cfg0.N) (y : (win0_2.xblock (grid0.coords t)).Idx) (k : Fin 1024) :
    iblk m c 1 t (wrow t y k) = V m c main_arg1 (wi (((cfg0.win 2).blk t).view.emb y) k) := by
  obtain ⟨-, -, -, -, -, w0, w1, -, -, o2, -, -, -⟩ := grid_facts t
  show V m c main_arg1 (((cfg0.win 1).blk t).view.emb (wrow t y k)) = _
  refine congrArg (V m c main_arg1) ?_
  funext a; apply Fin.ext
  refine (emb_w t y k a).trans ?_
  match a with
  | ⟨0, _⟩ =>
    show win0_1.index t (0 : Fin 2) * 4096 + (y 2).val = (((cfg0.win 2).blk t).view.emb y (2 : Fin 3) : Nat)
    rw [show ((cfg0.win 2).blk t).view.emb y = (win0_2.rect t).emb y from rfl, win0_2.rect_emb_val t y (2 : Fin 3), w0, o2]
    try rfl
  | ⟨1, _⟩ =>
    show win0_1.index t (1 : Fin 2) * 1024 + k.val = k.val
    rw [w1]; omega

/-- Point `t` writes back block `t` of `logits` of the argument arrays. -/
theorem flushed_eq (c : Dev nD) (t : Fin cfg0.N) :
    (dats m 0 c).flushed 2 t
      = ((cfg0.win 2).blk t).view.read (Elt Ideal) (logits (V m c main_arg0) (V m c main_arg1)) := by
  show (cfg0.win 2).cut (grid0.coords t) ((dats m 0 c).after 2 t) = _
  rw [after0_2]
  unfold wblk
  funext y
  exact stored_eq_logits t (iblk m c 0 t) _ (iblk m c 1 t) (V m c main_arg0) (V m c main_arg1) y
    (((cfg0.win 2).blk t).view.emb y) (read_x m c t y) (read_w m c t y)

/-! ## The blocks cover the result array -/

/-- An index of the result array is in point `t`'s block iff each coordinate is in the block's range, cut at the
    array's end, on its axis. -/
theorem mem_blk (t : Fin cfg0.N) (i : S64x1x100000.Idx) :
    i ∈ ((cfg0.win 2).blk t).view.set ↔ ∀ a : Fin 3, win0_2.index t a * S64x1x4096.size a ≤ (i a).val
      ∧ (i a).val < win0_2.index t a * S64x1x4096.size a + win0_2.xsize (grid0.coords t) a := by
  show i ∈ ((View.whole main_v0).slice (win0_2.rect t)).set ↔ _
  rw [View.set_slice_whole, Rect.mem_set_unit]
  exact Iff.rfl

/-- Column `v` of the result lies in the block of point `v / 4096`, which is written back. -/
theorem cover (i : S64x1x100000.Idx) :
    ∃ t : Fin cfg0.N, (cfg0.win 2).flush t = true ∧ i ∈ ((cfg0.win 2).blk t).view.set := by
  have hN : cfg0.N = 25 := N_0
  have h0 : (i 0).val < 64 := (i 0).isLt
  have h1 : (i 1).val < 1 := (i 1).isLt
  have h2 : (i 2).val < 100000 := (i 2).isLt
  refine ⟨⟨(i 2).val / 4096, by rw [hN]; omega⟩, flush0_2 _, ?_⟩
  rw [mem_blk]
  obtain ⟨-, -, -, -, -, -, -, o0, o1, o2, s0, s1, s2⟩ := grid_facts ⟨(i 2).val / 4096, by rw [hN]; omega⟩
  intro a
  match a with
  | ⟨0, _⟩ =>
    show win0_2.index _ (0 : Fin 3) * 64 ≤ (i 0).val ∧ (i 0).val < win0_2.index _ (0 : Fin 3) * 64 + win0_2.xsize _ (0 : Fin 3)
    rw [o0, s0]; omega
  | ⟨1, _⟩ =>
    show win0_2.index _ (1 : Fin 3) * 1 ≤ (i 1).val ∧ (i 1).val < win0_2.index _ (1 : Fin 3) * 1 + win0_2.xsize _ (1 : Fin 3)
    rw [o1, s1]; omega
  | ⟨2, _⟩ =>
    show win0_2.index _ (2 : Fin 3) * 4096 ≤ (i 2).val ∧ (i 2).val < win0_2.index _ (2 : Fin 3) * 4096 + win0_2.xsize _ (2 : Fin 3)
    rw [o2, s2]
    show (i 2).val / 4096 * 4096 ≤ (i 2).val ∧ (i 2).val < (i 2).val / 4096 * 4096 + min 4096 (100000 - (i 2).val / 4096 * 4096)
    omega

/-! ## The result array after the run -/

/-- The result array ends holding `logits` of the argument arrays. -/
theorem final (c : Dev nD) :
    (dats m 0 c).arrAt 2 cfg0.N = logits (m ((c : Thread nD τ).loc main_arg0)) (m ((c : Thread nD τ).loc main_arg1)) :=
  (dats m 0 c).arrAt_eq_of_cover 2 (logits (V m c main_arg0) (V m c main_arg1)) (fun t _ => flushed_eq m c t) cover

/-- Every weakly fair execution of the idealized kernel terminates without a fault, the result array at `logits` of the
    argument arrays and these unchanged. -/
theorem run : θ_run defs (onTc (τ := τ) (main (F := Ideal))) ⟨m, fun _ => 0, ρ⟩ fun r => ∀ c : Dev nD,
      r.2.mem ((c.tc : Thread nD τ).loc main_v0)
        = logits (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Val

end
-- ==== Proof.Bridge.lean ====
/-
  The reference is the same function of the arguments as the idealized kernel.

  The reference is one contraction, `einsum('bsh,vh->bsv')`: over the extended reals its entry `(b, 0, v)` is the sum
  over the hidden axis of `x[b, 0, k] · W[v, k]`, which is `logits` term for term — the kernel only cuts the
  vocabulary axis into blocks, and each entry is computed whole inside one block. No algebraic law is needed, and no
  finiteness of the inputs.
-/
import proofs.«120237_g29180007809632_cont_9to1_400_12_alg».proof.Proof.IdealFinal
import proofs.«120237_g29180007809632_cont_9to1_400_12_alg».proof.Proof.Gen.ReferenceIdeal.Read

noncomputable section

namespace Cert.Bridge

open Idealize.ShloMosaic Idealize.ShloMosaic.TcCoe Idealize.SL.Sem

/-- The reference's contraction, read at an index, is `logits`. -/
theorem reference_eq (x : Cert.KernelIdeal.S64x1x1024.Idx → Elt Ideal .f32) (W : Cert.KernelIdeal.S100000x1024.Idx → Elt Ideal .f32) :
    Cert.ReferenceIdeal.Read.val_main_v0 (F := Ideal) x W = Cert.KernelIdeal.Val.logits x W := by
  funext i
  rw [Cert.ReferenceIdeal.Read.val_main_v0_apply]
  rfl

end Cert.Bridge

end
-- ==== Proof.lean ====
/-
  The certificate of the vocabulary projection `logits = hidden_states · Wᵀ`, hidden_states [64, 1, 1024], W [100000, 1024].

  The kernel walks the vocabulary axis in 25 blocks of 4096 rows of `W`; at each point it multiplies the resident
  activations with the staged weight block, contracted along the hidden axis, and writes back one [64, 1, 4096] block of
  the result. The last block overhangs both `W` and the result by 2400 rows: its fetch and its write-back are cut at
  the arrays' ends.

  Frames. The reference is one host contraction: its run is the generated one. Of the idealized kernel the frame comes
  with the value: the stored block at a column inside the result array reads only the weight row of that column, a row
  inside the matrix, so what the rows past the matrix's end hold is immaterial. Of the kernel at the word level the
  result window is forgotten: both inputs are only read, and end as launched.

  Value. Over the extended reals the matrix unit's product into the zero accumulator and the host's contraction are the
  same finite sum `∑ k, x[b, 0, k] · W[v, k]`; the kernel's blocks cover the result array (column `v` in the block of
  point `v / 4096`), so both programs end with that sum at every index. The idealization rewrote nothing.
-/
import proofs.«120237_g29180007809632_cont_9to1_400_12_alg».proof.Defs
import proofs.«120237_g29180007809632_cont_9to1_400_12_alg».proof.Proof.Gen.Kernel
import proofs.«120237_g29180007809632_cont_9to1_400_12_alg».proof.Proof.Gen.KernelIdeal
import proofs.«120237_g29180007809632_cont_9to1_400_12_alg».proof.Proof.Gen.ReferenceIdeal
import proofs.«120237_g29180007809632_cont_9to1_400_12_alg».proof.Proof.Gen.ReferenceIdeal.Read
import proofs.«120237_g29180007809632_cont_9to1_400_12_alg».proof.Proof.Gen.Pre_finite_inputs
import proofs.«120237_g29180007809632_cont_9to1_400_12_alg».proof.Proof.KernelData
import proofs.«120237_g29180007809632_cont_9to1_400_12_alg».proof.Proof.IdealFinal
import proofs.«120237_g29180007809632_cont_9to1_400_12_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs to the end and leaves its two arguments unchanged. -/
theorem frame_k : Cert.frame_Kernel := fun m ρ _ => Cert.Kernel.Body.frame (F := Bits) m ρ

/-- So does the idealized kernel. -/
theorem frame_ki : Cert.frame_KernelIdeal := fun m ρ _ => Cert.KernelIdeal.Val.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with `∑ k, x[b, 0, k] · W[v, k]` at every index
    of the result. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v0_eq]
  exact Cert.Bridge.reference_eq _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
